-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  main_v3
-- ==== Kernel.lean ====
abbrev S16777216 : Shape := ⟨1, ![16777216]⟩
abbrev S131072x128 : Shape := ⟨2, ![131072, 128]⟩
abbrev S16x128 : Shape := ⟨2, ![16, 128]⟩
abbrev S8192x128 : Shape := ⟨2, ![8192, 128]⟩
abbrev S8x128 : Shape := ⟨2, ![8, 128]⟩
abbrev S128 : Shape := ⟨1, ![128]⟩
abbrev S1x128 : Shape := ⟨2, ![1, 128]⟩
abbrev S_ : Shape := ⟨0, ![]⟩

abbrev nBuf : Space → Nat
  | .hbm => 31
  | .vmem => 10
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S131072x128, .f32⟩
  | .hbm, ⟨3, _⟩ => ⟨S131072x128, .i32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16777216_S131072x128 : S16777216.ShapeCasts S131072x128
  inb_S8x128_S8x128_0_0 : ∀ a, (![0, 0] : Fin 2 → Nat) a + S8x128.size a ≤ S8x128.size a
  h_S8x128 : 0 < S8x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .i32 = 32 ∨ (Rect.block (s := S131072x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S_, .f32⟩
  | .hbm, ⟨3, _⟩ => ⟨S16777216, .f32⟩
  | .hbm, ⟨4, _⟩ => ⟨S16777216, .i1⟩
  | .hbm, ⟨5, _⟩ => ⟨S_, .i32⟩
  | .hbm, ⟨6, _⟩ => ⟨S16777216, .i32⟩
  | .hbm, ⟨7, _⟩ => ⟨S16777216, .i1⟩
  | .hbm, ⟨8, _⟩ => ⟨S16777216, .i1⟩
  | .hbm, ⟨9, _⟩ => ⟨S_, .f32⟩
  | .hbm, ⟨10, _⟩ => ⟨S_, .f32⟩
  | .hbm, ⟨11, _⟩ => ⟨S16777216, .f32⟩
  | .hbm, ⟨12, _⟩ => ⟨S16777216, .f32⟩
  | .hbm, ⟨13, _⟩ => ⟨S_, .f32⟩
  | .hbm, ⟨14, _⟩ => ⟨S_, .f32⟩
  | .hbm, ⟨15, _⟩ => ⟨S16777216, .i1⟩
  | .hbm, ⟨16, _⟩ => ⟨S16777216, .i1⟩
  | .hbm, ⟨17, _⟩ => ⟨S_, .f32⟩
  | .hbm, ⟨18, _⟩ => ⟨S_, .f32⟩
  | .hbm, ⟨19, _⟩ => ⟨S16777216, .f32⟩
  | .hbm, ⟨20, _⟩ => ⟨S16777216, .f32⟩
  | .hbm, ⟨21, _⟩ => ⟨S_, .f32⟩
  | .hbm, ⟨22, _⟩ => ⟨S_, .f32⟩
  | .hbm, ⟨23, _⟩ => ⟨S16777216, .i1⟩
  | .hbm, ⟨24, _⟩ => ⟨S16777216, .i1⟩
  | .hbm, ⟨25, _⟩ => ⟨S_, .f32⟩
  | .hbm, ⟨26, _⟩ => ⟨S16777216, .f32⟩
  | .hbm, ⟨27, _⟩ => ⟨S16777216, .f32⟩
  | .hbm, ⟨28, _⟩ => ⟨S_, .f32⟩
  | .hbm, ⟨29, _⟩ => ⟨S_, .f32⟩
  | .hbm, ⟨30, _⟩ => ⟨S16777216, .f32⟩
  | .hbm, ⟨31, _⟩ => ⟨S16777216, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_call2_v0 : Ref sig .tc := ⟨.hbm, 29, rfl⟩
abbrev main_call2_v1 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_cst_7 : Ref sig .tc := ⟨.hbm, 34, rfl⟩
abbrev main_v17 : Ref sig .tc := ⟨.hbm, 35, rfl⟩
abbrev main_v18 : Ref sig .tc := ⟨.hbm, 36, rfl⟩
abbrev main_cst_8 : Ref sig .tc := ⟨.hbm, 37, rfl⟩
abbrev main_v19 : Ref sig .tc := ⟨.hbm, 38, rfl⟩
abbrev main_v20 : Ref sig .tc := ⟨.hbm, 39, rfl⟩
abbrev main_cst_9 : Ref sig .tc := ⟨.hbm, 40, rfl⟩
abbrev main_v21 : Ref sig .tc := ⟨.hbm, 41, rfl⟩
abbrev main_v22 : Ref sig .tc := ⟨.hbm, 42, rfl⟩
abbrev main_cst_10 : Ref sig .tc := ⟨.hbm, 43, rfl⟩
abbrev main_v23 : Ref sig .tc := ⟨.hbm, 44, rfl⟩
abbrev main_v24 : Ref sig .tc := ⟨.hbm, 45, rfl⟩
abbrev main_cst_11 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.Spec.lean ====
/-
  The soft confusion-matrix loss, as mathematics.  For probabilities `x` and labels `l` over n = 16777216 entries:
    TP = ∑ [x > 1/2 ∧ l = 1] x,   FP = ∑ [x > 1/2 ∧ l ≠ 1] x,   FN = ∑ [¬ x > 1/2 ∧ l = 1] (1 - x),
    precision = (TP + ε) / (TP + FP + ε),  recall = (TP + ε) / (TP + FN + ε),
    result = -(2 · precision · recall / (precision + recall)).
  This module holds the three summands as scalar functions, the scalar tail as ONE function of the three sums, and the
  shape of a per-core accumulator slab: an [16,128] array made of two [8,128] slabs, slab `c` holding in its row 0 the
  column sums of row blocks 8c … 8c+7 of the [131072,128] arrangement of the entries, and zeros in rows 1 … 7.
-/
import Idealize.ShloMosaic.PureOps.Ideal
import Idealize.ShloMosaic.PureOps.Ideal.Laws
import Idealize.ShloMosaic.Lib.ValueIdx

noncomputable section

namespace Cert.NegF1

open Idealize.ShloMosaic Idealize.ShloMosaic.ValueIdx

/-- The prediction is positive: the probability exceeds one half. -/
def pos (a : Ideal .f32) : BitVec 1 := FloatOps.cmpf .ogt a (FloatOps.ofBits .f32 0x3F000000#32)
/-- The label is the positive class. -/
def lab (b : BitVec 32) : BitVec 1 := IntOp.cmpi .eq b 1#32

/-- A true positive contributes its probability. -/
def tpS (a : Ideal .f32) (b : BitVec 32) : Ideal .f32 :=
  Scalar.select (IntOp.andi (pos a) (lab b)) a (FloatOps.ofBits .f32 0x00000000#32)
/-- A false positive contributes its probability. -/
def fpS (a : Ideal .f32) (b : BitVec 32) : Ideal .f32 :=
  Scalar.select (IntOp.andi (pos a) (~~~ lab b)) a (FloatOps.ofBits .f32 0x00000000#32)
/-- A false negative contributes one minus its probability. -/
def fnS (a : Ideal .f32) (b : BitVec 32) : Ideal .f32 :=
  Scalar.select (IntOp.andi (~~~ pos a) (lab b)) (FloatOps.subf (FloatOps.ofBits .f32 0x3F800000#32) a)
    (FloatOps.ofBits .f32 0x00000000#32)

/-- On one bit, exclusive-or with `true` is negation. -/
theorem xori_true (v : BitVec 1) : IntOp.xori v 1#1 = ~~~ v := by
  unfold IntOp.xori; revert v; decide

/-- The flat, the [131072,128] and the [16,128] shapes, and the scalar shape. -/
abbrev SN : Shape := ⟨1, ![16777216]⟩
abbrev SRL : Shape := ⟨2, ![131072, 128]⟩
abbrev SO : Shape := ⟨2, ![16, 128]⟩
abbrev S0 : Shape := ⟨0, ![]⟩

/-- The sum of a summand over all entries, from the zero word: what a whole-array float sum holds. -/
def total (f : Ideal .f32 → BitVec 32 → Ideal .f32) (x : FVec Ideal SN .f32) (l : IVec SN 32) : FVec Ideal S0 .f32 :=
  fun _ => FloatOps.ofBits .f32 0x00000000#32 + ∑ k : SN.Idx, f (x k) (l k)

/-- The scalar tail: precision, recall and the negated F1 score, from the three sums. -/
def tailV (tp fp fn : FVec Ideal S0 .f32) : FVec Ideal S0 .f32 :=
  Host.negf (F := Ideal)
    (Host.divf (F := Ideal)
      (mulf
        (mulf (constant (F := Ideal) S0 .f32 0x40000000#32)
          (Host.divf (F := Ideal) (addf tp (constant (F := Ideal) S0 .f32 0x3727C5AC#32))
            (addf (addf tp fp) (constant (F := Ideal) S0 .f32 0x3727C5AC#32))))
        (Host.divf (F := Ideal) (addf tp (constant (F := Ideal) S0 .f32 0x3727C5AC#32))
          (addf (addf tp fn) (constant (F := Ideal) S0 .f32 0x3727C5AC#32))))
      (addf
        (Host.divf (F := Ideal) (addf tp (constant (F := Ideal) S0 .f32 0x3727C5AC#32))
          (addf (addf tp fp) (constant (F := Ideal) S0 .f32 0x3727C5AC#32)))
        (Host.divf (F := Ideal) (addf tp (constant (F := Ideal) S0 .f32 0x3727C5AC#32))
          (addf (addf tp fn) (constant (F := Ideal) S0 .f32 0x3727C5AC#32)))))

/-- The loss as one function of the inputs. -/
def loss (x : FVec Ideal SN .f32) (l : IVec SN 32) : FVec Ideal S0 .f32 :=
  tailV (total tpS x l) (total fpS x l) (total fnS x l)

/-- Row `row` of row block `t` (blocks of 8192 rows). -/
abbrev blockRow (t : Fin 16) (row : Fin 8192) : Fin 131072 := ⟨t.val * 8192 + row.val, by omega⟩

/-- The column sums of row block `t` of a [131072,128] array. -/
def colSum (g : SRL.Idx → EReal) (t : Fin 16) (lane : Fin 128) : EReal :=
  ∑ row : Fin 8192, g (ix2 (blockRow t row) lane)

/-- The accumulator slabs: row 0 of slab `c` holds the column sums of blocks 8c … 8c+7, the other rows zero. -/
def slab (g : SRL.Idx → EReal) : SO.Idx → EReal := fun R =>
  if (R 0).val % 8 = 0 then
    ∑ j : Fin 8, colSum g ⟨(R 0).val / 8 * 8 + j.val, by have := idx2_lt0 R; omega⟩ (R 1)
  else 0

/-- The block, slab and row shapes of the accumulation. -/
abbrev SB : Shape := ⟨2, ![8192, 128]⟩
abbrev S8 : Shape := ⟨2, ![8, 128]⟩
abbrev S1 : Shape := ⟨2, ![1, 128]⟩

/-- The lane of a slab index, typed by its literal extent. -/
abbrev laneOf (y : S8.Idx) : Fin 128 := ⟨(y 1).val, idx2_lt1 y⟩

/-- One accumulation step: a [1,128] row is added into row 0 of a slab, the other rows are kept. -/
def rowUpd {F : FTy → Type} [FloatOps F] (a : FVec F S8 .f32) (s : FVec F S1 .f32) : FVec F S8 .f32 :=
  fun y => if (y 0).val = 0 then FloatOps.addf (a y) (s (ix2 (0 : Fin 1) (laneOf y))) else a y

/-- The zero slab an accumulation starts from. -/
def zero8 {F : FTy → Type} [FloatOps F] : FVec F S8 .f32 := broadcast S8 (Scalar.ofBits .f32 0x00000000#32)

/-- What a slab holds after grid point `n`, the points counted row-major over the (core, step) grid with 8 steps per
    core: at the first step of a core the slab is zeroed and the step's row added, at any other step the row is added
    to what the step before left. -/
def acc {F : FTy → Type} [FloatOps F] (col : ℕ → FVec F S1 .f32) : ℕ → FVec F S8 .f32
  | 0 => rowUpd zero8 (col 0)
  | n + 1 => if (n + 1) % 8 = 0 then rowUpd zero8 (col (n + 1)) else rowUpd (acc col n) (col (n + 1))

end Cert.NegF1

end
-- ==== Proof.RefRead.lean ====
/-
  The reference, read: its three whole-array sums are the sums of the true-positive, false-positive and false-negative
  summands over all entries, each from the zero word, and its result is the scalar tail of those three sums.
-/
import proofs.«131478_j77129022701690_2_alg».proof.Proof.Spec
import proofs.«131478_j77129022701690_2_alg».proof.Proof.Gen.ReferenceIdeal.Read

noncomputable section

namespace Cert.ReferenceIdeal.RefValue

open Idealize.ShloMosaic Idealize.ShloMosaic.TcCoe Idealize.SL.Sem
open Cert.ReferenceIdeal Cert.ReferenceIdeal.Gen Cert.ReferenceIdeal.Read Cert.NegF1

variable (x0 : (⟨S16777216, .f32⟩ : BufTy).Contents (Elt Ideal)) (x1 : (⟨S16777216, .i32⟩ : BufTy).Contents (Elt Ideal))

/-- The first selected array holds the true-positive summand, entry by entry. -/
theorem v5_apply (j : S16777216.Idx) : val_main_v5 (F := Ideal) x0 x1 j = tpS (x0 j) (x1 j) := rfl
/-- The second, the false-positive summand. -/
theorem v9_apply (j : S16777216.Idx) : val_main_v9 (F := Ideal) x0 x1 j = fpS (x0 j) (x1 j) := rfl
/-- The third, the false-negative summand. -/
theorem v15_apply (j : S16777216.Idx) : val_main_v15 (F := Ideal) x0 x1 j = fnS (x0 j) (x1 j) := rfl

/-- The three whole-array sums are the totals of the three summands. -/
theorem v6_eq : val_main_v6 (F := Ideal) x0 x1 = total tpS x0 x1 := by
  funext i
  rw [val_main_v6_apply]
  exact congrArg (fun s => _ + s) (Finset.sum_congr rfl fun j _ => v5_apply x0 x1 j)
theorem v10_eq : val_main_v10 (F := Ideal) x0 x1 = total fpS x0 x1 := by
  funext i
  rw [val_main_v10_apply]
  exact congrArg (fun s => _ + s) (Finset.sum_congr rfl fun j _ => v9_apply x0 x1 j)
theorem v16_eq : val_main_v16 (F := Ideal) x0 x1 = total fnS x0 x1 := by
  funext i
  rw [val_main_v16_apply]
  exact congrArg (fun s => _ + s) (Finset.sum_congr rfl fun j _ => v15_apply x0 x1 j)

/-- The result is the scalar tail of the three sums (the operations after the sums, composed). -/
theorem v29_tail : val_main_v29 (F := Ideal) x0 x1
    = tailV (val_main_v6 (F := Ideal) x0 x1) (val_main_v10 (F := Ideal) x0 x1) (val_main_v16 (F := Ideal) x0 x1) := rfl

/-- So the reference computes the loss. -/
theorem v29_eq : val_main_v29 (F := Ideal) x0 x1 = loss x0 x1 := by
  rw [v29_tail, v6_eq, v10_eq, v16_eq]; rfl

/-- The reference's run: it ends with the loss of its arguments in its result, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29)
        = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v29_eq m c)).trans (v29_eq _ _), (h c).2⟩)
    (Cert.ReferenceIdeal.Value.run (F := Ideal) m ρ)

end Cert.ReferenceIdeal.RefValue

end
-- ==== Proof.LibBlockSum.lean ====
/-
  Sums over a range cut into equal blocks.

  The numbers below `A * B` are the numbers `B * t + r` with `t < A` and `r < B`, each once: a sum over them is the
  double sum over the block `t` and the position `r` inside the block. A sum over triples is the triple sum.
-/
import Mathlib.Algebra.BigOperators.Fin
import Mathlib.Logic.Equiv.Fin.Basic

open scoped BigOperators

namespace Cert.BlockSum

variable {M : Type*} [AddCommMonoid M]

/-- Position `r` of block `t` lies below `A * B`. -/
theorem blk_lt {A B : ℕ} (t : Fin A) (r : Fin B) : B * t.val + r.val < A * B :=
  calc B * t.val + r.val < B * t.val + B := Nat.add_lt_add_left r.isLt _
    _ = B * (t.val + 1) := (Nat.mul_succ _ _).symm
    _ ≤ B * A := Nat.mul_le_mul_left B t.isLt
    _ = A * B := Nat.mul_comm _ _

/-- A sum over the numbers below `N = A * B` is the double sum over blocks and positions. -/
theorem sum_fin_blocks {A B N : ℕ} (hN : N = A * B) (f : Fin N → M) :
    ∑ j, f j = ∑ t : Fin A, ∑ r : Fin B, f ⟨B * t.val + r.val, hN ▸ blk_lt t r⟩ := by
  subst hN
  rw [← Equiv.sum_comp finProdFinEquiv f, Fintype.sum_prod_type]
  refine Finset.sum_congr rfl fun t _ => Finset.sum_congr rfl fun r _ => congrArg f (Fin.ext ?_)
  show r.val + B * t.val = B * t.val + r.val
  exact Nat.add_comm _ _

/-- A sum over triples is the triple sum. -/
theorem sum_triple {α β γ : Type*} [Fintype α] [Fintype β] [Fintype γ] (f : α × β × γ → M) :
    ∑ q, f q = ∑ x, ∑ y, ∑ z, f (x, y, z) := by
  rw [Fintype.sum_prod_type]
  exact Finset.sum_congr rfl fun x _ => Fintype.sum_prod_type _

end Cert.BlockSum
-- ==== Proof.SumLaws.lean ====
/-
  Laws of sums used by the accumulation argument.

  * The entries of the two accumulator slabs add up to the sum of all entries of the [131072,128] arrangement: only
    rows 0 and 8 of the [16,128] array are non-zero, row 8c holds the column sums of row blocks 8c … 8c+7, and the
    sixteen blocks of 8192 rows cut the 131072 rows exactly.
  * A sum over the [131072,128] arrangement of a flat array is the sum over the flat array: the two index sets are
    matched one to one by row-major position.
  * The slab after a grid point n with n ≡ 7 (mod 8) holds, in row 0, the sum of the eight rows added at the points
    n-7 … n, and zeros elsewhere; this is the case n % 8 = 7 of a closed form for every n, shown by induction.
-/
import proofs.«131478_j77129022701690_2_alg».proof.Proof.Spec
import proofs.«131478_j77129022701690_2_alg».proof.Proof.LibBlockSum
import Idealize.ShloMosaic.Lib.Pipeline.Value

noncomputable section

namespace Cert.NegF1

open Idealize.ShloMosaic Idealize.ShloMosaic.ValueIdx

namespace SumAux

/-- A slab entry in a row that is not a multiple of eight is zero. -/
theorem slab_of_mod_ne (g : SRL.Idx → EReal) (a : Fin 16) (b : Fin 128) (h : a.val % 8 ≠ 0) :
    slab g (ix2 a b) = 0 := if_neg h

/-- A slab entry in a row that is a multiple of eight is the sum of eight blocks' column sums. -/
theorem slab_of_mod_eq (g : SRL.Idx → EReal) (a : Fin 16) (b : Fin 128) (h : a.val % 8 = 0) :
    slab g (ix2 a b) = ∑ j : Fin 8, colSum g ⟨a.val / 8 * 8 + j.val, by omega⟩ b := if_pos h

end SumAux

open SumAux in
/-- The entries of the accumulator slabs add up to the sum of all entries: the non-zero rows 0 and 8 hold the column
    sums of the sixteen row blocks, eight each, and the blocks partition the rows. -/
theorem sum_slab (g : SRL.Idx → EReal) : ∑ R : SO.Idx, slab g R = ∑ q : SRL.Idx, g q := by
  have hL : ∑ R : SO.Idx, slab g R
      = ∑ c : Fin 2, ∑ b : Fin 128, ∑ j : Fin 8, colSum g ⟨8 * c.val + j.val, by omega⟩ b := by
    rw [sum_idx2, Cert.BlockSum.sum_fin_blocks (A := 2) (B := 8) (by norm_num : 16 = 2 * 8)]
    refine Finset.sum_congr rfl fun c _ => ?_
    rw [Finset.sum_eq_single (0 : Fin 8)]
    · refine Finset.sum_congr rfl fun b _ => ?_
      rw [slab_of_mod_eq g _ b (by show (8 * c.val + (0 : Fin 8).val) % 8 = 0; simp)]
      refine Finset.sum_congr rfl fun j _ => ?_
      refine congrArg (fun t => colSum g t b) (Fin.ext ?_)
      show (8 * c.val + (0 : Fin 8).val) / 8 * 8 + j.val = 8 * c.val + j.val
      have : ((0 : Fin 8).val) = 0 := rfl
      omega
    · intro r _ hr
      refine Finset.sum_eq_zero fun b _ => slab_of_mod_ne g _ b ?_
      have : r.val ≠ 0 := fun h => hr (Fin.ext h)
      show (8 * c.val + r.val) % 8 ≠ 0
      omega
    · intro h; exact absurd (Finset.mem_univ _) h
  have hR : ∑ q : SRL.Idx, g q
      = ∑ c : Fin 2, ∑ b : Fin 128, ∑ j : Fin 8, colSum g ⟨8 * c.val + j.val, by omega⟩ b := by
    rw [sum_idx2, Cert.BlockSum.sum_fin_blocks (A := 16) (B := 8192) (by norm_num : 131072 = 16 * 8192)]
    have h1 : ∀ t : Fin 16,
        ∑ rr : Fin 8192, ∑ lane : Fin 128,
          g (ix2 (⟨8192 * t.val + rr.val, by omega⟩ : Fin 131072) lane) = ∑ lane : Fin 128, colSum g t lane := by
      intro t
      rw [Finset.sum_comm]
      refine Finset.sum_congr rfl fun lane _ => Finset.sum_congr rfl fun rr _ => ?_
      exact congrArg (fun i => g (ix2 i lane))
        (Fin.ext (by show 8192 * t.val + rr.val = t.val * 8192 + rr.val; omega))
    rw [Finset.sum_congr rfl fun t _ => h1 t]
    rw [Cert.BlockSum.sum_fin_blocks (A := 2) (B := 8) (by norm_num : 16 = 2 * 8)]
    refine Finset.sum_congr rfl fun c _ => ?_
    exact Finset.sum_comm
  rw [hL, hR]

/-- Re-arranging a flat array into [131072,128] does not change the sum of a summand over its entries: the index sets
    correspond one to one by row-major position. -/
theorem sum_reshape (f : Ideal .f32 → BitVec 32 → Ideal .f32) (x : FVec Ideal SN .f32) (l : IVec SN 32)
    (h : SN.ShapeCasts SRL) :
    ∑ q : SRL.Idx, f (shapeCast SRL x h q) (shapeCast SRL l h q) = ∑ k : SN.Idx, f (x k) (l k) := by
  exact Equiv.sum_comp (Shape.reshapeEquiv h) (fun k => f (x k) (l k))

namespace SumAux

/-- One accumulation step at an index given by its coordinates. -/
theorem rowUpd_ix2 (a : FVec Ideal S8 .f32) (s : FVec Ideal S1 .f32) (r : Fin 8) (lane : Fin 128) :
    rowUpd a s (ix2 r lane)
      = if r.val = 0 then a (ix2 r lane) + s (ix2 (0 : Fin 1) lane) else a (ix2 r lane) := rfl

/-- The zero slab holds zero everywhere. -/
theorem zero8_apply (y : S8.Idx) : (zero8 : FVec Ideal S8 .f32) y = 0 := Ideal.ofBits_zero_f32

/-- Closed form of the slab after grid point `n`: row 0 holds the sum of the rows added since the last point that is
    a multiple of eight, `n - n % 8`, up to `n`; the other rows hold zero. By induction on `n`: a point that is a
    multiple of eight starts again from the zero slab, any other point adds one more row to the sum. -/
theorem acc_closed (col : ℕ → FVec Ideal S1 .f32) (n : ℕ) (r : Fin 8) (lane : Fin 128) :
    acc col n (ix2 r lane)
      = if r.val = 0 then ∑ j ∈ Finset.range (n % 8 + 1), col (n - n % 8 + j) (ix2 (0 : Fin 1) lane) else 0 := by
  induction n with
  | zero =>
    show rowUpd zero8 (col 0) (ix2 r lane) = _
    rw [rowUpd_ix2, zero8_apply]
    simp
  | succ n ih =>
    show (if (n + 1) % 8 = 0 then rowUpd zero8 (col (n + 1)) else rowUpd (acc col n) (col (n + 1))) (ix2 r lane) = _
    by_cases hm : (n + 1) % 8 = 0
    · rw [if_pos hm, rowUpd_ix2, zero8_apply, hm]
      simp
    · rw [if_neg hm, rowUpd_ix2, ih]
      have e1 : (n + 1) % 8 = n % 8 + 1 := by omega
      have e2 : n + 1 - (n % 8 + 1) = n - n % 8 := by omega
      have e3 : n - n % 8 + (n % 8 + 1) = n + 1 := by omega
      rw [e1, e2]
      by_cases hr : r.val = 0
      · simp only [if_pos hr]
        rw [Finset.sum_range_succ _ (n % 8 + 1), e3]
      · simp only [if_neg hr]

end SumAux

open SumAux in
/-- At the last step of a core, `n % 8 = 7`, row 0 of the slab holds the sum of the eight rows added at the points
    `n - 7 … n`, and the other rows hold zero. -/
theorem acc_flush (col : ℕ → FVec Ideal S1 .f32) (n : ℕ) (hn : n % 8 = 7) (r : Fin 8) (lane : Fin 128) :
    acc col n (ix2 r lane) = if r.val = 0 then ∑ j : Fin 8, col (n - 7 + j.val) (ix2 (0 : Fin 1) lane) else 0 := by
  rw [acc_closed, hn, Finset.sum_range]

end Cert.NegF1

end
-- ==== Proof.KDefs.lean ====
/-
  The kernel body's three [1,128] rows of column sums, named: the sums over a block's 8192 rows of the true-positive,
  false-positive and false-negative summands.  The false-positive and false-negative rows are payloads of the body as
  printed; the true-positive row is the second summand of the payload that accumulates it.
-/
import proofs.«131478_j77129022701690_2_alg».proof.Proof.Gen.KernelIdeal.Skeleton

noncomputable section

namespace Cert.KernelIdeal.Rows

open Idealize.ShloMosaic Cert.KernelIdeal Cert.KernelIdeal.Gen

variable {F : FTy → Type} [FloatOps F]

/-- The true-positive row of a block: the column sums of `x` where the prediction and the label are both positive. -/
def colTP (v3 : Vec F S8192x128 .f32) (v5 : Vec F S8192x128 .i32) : FVec F S1x128 .f32 :=
  shapeCast S1x128
    (multiReduction .add [0] S128
      (select (andi (k0_pay7 v3) (k0_pay8 v5)) (k0_pay6 v3) (broadcast S8192x128 (Scalar.ofBits .f32 0x00000000#32)))
      0x00000000#32 reduces_S8192x128_S128 (.inl rfl) rfl)
    shapeCasts_S128_S1x128

/-- The payload that accumulates the true-positive row is the row loaded plus that block's row. -/
theorem pay11_eq (v3 : Vec F S8192x128 .f32) (v5 : Vec F S8192x128 .i32) (v30 : Vec F S1x128 .f32) :
    k0_pay11 v3 v5 v30 = addf (shapeCast S1x128 v30 shapeCasts_S1x128_S1x128) (colTP v3 v5) := rfl

/-- The false-positive row of a block. -/
abbrev colFP (v3 : Vec F S8192x128 .f32) (v5 : Vec F S8192x128 .i32) : FVec F S1x128 .f32 := k0_pay9 v3 v5
/-- The false-negative row of a block. -/
abbrev colFN (v3 : Vec F S8192x128 .f32) (v5 : Vec F S8192x128 .i32) : FVec F S1x128 .f32 := k0_pay10 v3 v5

end Cert.KernelIdeal.Rows

end
-- ==== Proof.ColSums.lean ====
/-
  Two readings the accumulation rests on.
  (1) A block's three [1,128] rows of column sums, at the ideal values: the kernel masks the block elementwise, sums the
      masked [8192,128] array over its rows, and recasts the [128] result as a [1,128] row; read at lane `l` each row is
      the sum over the block's 8192 rows of the scalar summand (true positive, false positive, false negative) of the
      entry at (row, l).  The masks are the comparisons `x > 1/2` and `label = 1`; the kernel writes "not" as
      exclusive-or with the all-true mask, which on one bit is negation.
  (2) An input window's block read at an index: block `t` of a [131072,128] array, at (row, lane), is the array at
      (8192 t + row, lane), and the array the region finds is the host's reshape of the flat argument.
-/
import proofs.«131478_j77129022701690_2_alg».proof.Proof.Spec
import proofs.«131478_j77129022701690_2_alg».proof.Proof.KDefs
import proofs.«131478_j77129022701690_2_alg».proof.Proof.Gen.KernelIdeal.Frame
import Idealize.ShloMosaic.Lib.Pipeline.Value
import Idealize.ShloMosaic.Lib.ValueLayout
import Idealize.ShloMosaic.PureOps.Ideal.Laws
import Idealize.ShloMosaic.Lib.StableHlo.Run

noncomputable section

namespace Cert.KernelIdeal.ColSums

open Idealize.ShloMosaic Idealize.ShloMosaic.TcCoe Idealize.SL.Sem Idealize.ShloMosaic.ValueIdx
open Cert.KernelIdeal Cert.KernelIdeal.Gen Cert.KernelIdeal.Rows Cert.NegF1

/-- The index a sum over axis 0 inserts: row `row` above lane `lane`. -/
theorem lift_ix (lane : Fin 128) (row : Fin 8192) :
    reduces_S8192x128_S128.lift (ix1 lane) row = ix2 row lane := by
  funext d
  match d with
  | ⟨0, _⟩ => exact Fin.ext rfl
  | ⟨1, _⟩ => exact Fin.ext rfl

/-- A [8192,128] array summed over its rows and read as a [1,128] row: at lane `lane` the sum of the column. -/
theorem red_apply (src : FVec Ideal S8192x128 .f32) (lane : Fin 128) :
    shapeCast S1x128
        (multiReduction .add [0] S128 src 0x00000000#32 reduces_S8192x128_S128 (.inl rfl) rfl)
        shapeCasts_S128_S1x128 (ix2 (0 : Fin 1) lane)
      = ∑ row : Fin 8192, src (ix2 row lane) := by
  refine (shapeCast_a_1a_apply _ shapeCasts_S128_S1x128 (0 : Fin 1) lane).trans ?_
  refine (Ideal.multiReduction_add_single src 0x00000000#32 reduces_S8192x128_S128 (.inl rfl) rfl (ix1 lane)).trans ?_
  refine Finset.sum_congr rfl fun row _ => ?_
  exact congrArg src (lift_ix lane row)

/-- The block as loaded, recast to its own shape, is the block. -/
theorem pay6_eq (x0 : Vec Ideal S8192x128 .f32) : k0_pay6 x0 = x0 := shapeCast_self _ _

/-- The prediction mask at an index. -/
theorem pay7_apply (x0 : Vec Ideal S8192x128 .f32) (i : S8192x128.Idx) : k0_pay7 x0 i = pos (x0 i) := by
  unfold k0_pay7; rw [pay6_eq]; rfl

/-- The label mask at an index. -/
theorem pay8_apply (x1 : Vec Ideal S8192x128 .i32) (i : S8192x128.Idx) : k0_pay8 (F := Ideal) x1 i = lab (x1 i) := by
  unfold k0_pay8
  show IntOp.cmpi .eq (shapeCast S8192x128 x1 shapeCasts_S8192x128_S8192x128 i) 1#32 = _
  rw [shapeCast_self]; rfl

theorem colTP_apply (x0 : Vec Ideal S8192x128 .f32) (x1 : Vec Ideal S8192x128 .i32) (lane : Fin 128) :
    colTP x0 x1 (ix2 (0 : Fin 1) lane) = ∑ row : Fin 8192, tpS (x0 (ix2 row lane)) (x1 (ix2 row lane)) := by
  unfold colTP
  refine (red_apply _ lane).trans ?_
  refine Finset.sum_congr rfl fun row _ => ?_
  show Scalar.select (IntOp.andi (k0_pay7 x0 (ix2 row lane)) (k0_pay8 x1 (ix2 row lane))) (k0_pay6 x0 (ix2 row lane)) _ = _
  rw [pay7_apply, pay8_apply, pay6_eq]; rfl

theorem colFP_apply (x0 : Vec Ideal S8192x128 .f32) (x1 : Vec Ideal S8192x128 .i32) (lane : Fin 128) :
    colFP x0 x1 (ix2 (0 : Fin 1) lane) = ∑ row : Fin 8192, fpS (x0 (ix2 row lane)) (x1 (ix2 row lane)) := by
  unfold colFP k0_pay9
  refine (red_apply _ lane).trans ?_
  refine Finset.sum_congr rfl fun row _ => ?_
  show Scalar.select (IntOp.andi (k0_pay7 x0 (ix2 row lane)) (IntOp.xori (k0_pay8 x1 (ix2 row lane)) 1#1))
    (k0_pay6 x0 (ix2 row lane)) _ = _
  rw [pay7_apply, pay8_apply, pay6_eq, xori_true]; rfl

theorem colFN_apply (x0 : Vec Ideal S8192x128 .f32) (x1 : Vec Ideal S8192x128 .i32) (lane : Fin 128) :
    colFN x0 x1 (ix2 (0 : Fin 1) lane) = ∑ row : Fin 8192, fnS (x0 (ix2 row lane)) (x1 (ix2 row lane)) := by
  unfold colFN k0_pay10
  refine (red_apply _ lane).trans ?_
  refine Finset.sum_congr rfl fun row _ => ?_
  show Scalar.select (IntOp.andi (IntOp.xori (k0_pay7 x0 (ix2 row lane)) 1#1) (k0_pay8 x1 (ix2 row lane)))
    (FloatOps.subf (FloatOps.ofBits .f32 0x3F800000#32) (k0_pay6 x0 (ix2 row lane))) _ = _
  rw [pay7_apply, pay8_apply, pay6_eq, xori_true]; rfl

variable {F : FTy → Type} [FloatOps F]
variable (m : (ℓ : Loc nD τ sig) → Buf (Elt F) ℓ)

/-- The first input's [131072,128] array, as the region finds it, is the host's reshape of the flat argument. -/
theorem V_v0 (c : Dev nD) :
    (V m c main_v0 : S131072x128.Idx → F .f32)
      = shapeCast S131072x128 (m ((c : Thread nD τ).loc main_arg0)) shapeCasts_S16777216_S131072x128 := by
  show StableHlo.after hostOps0 (fun b => m (c, b)) (Proc.devRef .tc main_v0) = _
  after_results
  rfl

theorem iblk0_apply (c : Dev nD) (t : Fin cfg0.N) (ht : t.val < 16) (row : Fin 8192) (lane : Fin 128) :
    (iblk m c 0 t : Vec F S8192x128 .f32) (ix2 row lane)
      = shapeCast S131072x128 (m ((c : Thread nD τ).loc main_arg0)) shapeCasts_S16777216_S131072x128
          (ix2 (blockRow ⟨t.val, ht⟩ row) lane) := by
  have hidx : ∀ t : Fin cfg0.N, win0_0.index t (0 : Fin 2) = t.val ∧ win0_0.index t (1 : Fin 2) = 0 :=
    (by decide +kernel : ∀ t : Fin grid0.N, _)
  unfold iblk
  rw [View.read_apply]
  show V m c main_v0 _ = _
  rw [V_v0]
  refine congrArg _ ?_
  funext a
  apply Fin.ext
  match a with
  | ⟨0, _⟩ =>
    show win0_0.index t 0 * 8192 + 1 * row.val = t.val * 8192 + row.val
    rw [(hidx t).1]; omega
  | ⟨1, _⟩ =>
    show win0_0.index t 1 * 128 + 1 * lane.val = lane.val
    rw [(hidx t).2]; omega

/-- The second input's [131072,128] array, as the region finds it, is the host's reshape of the flat argument. -/
theorem V_v1 (c : Dev nD) :
    (V m c main_v1 : S131072x128.Idx → BitVec 32)
      = shapeCast S131072x128 (m ((c : Thread nD τ).loc main_arg1)) shapeCasts_S16777216_S131072x128 := by
  show StableHlo.after hostOps0 (fun b => m (c, b)) (Proc.devRef .tc main_v1) = _
  after_results
  rfl

theorem iblk1_apply (c : Dev nD) (t : Fin cfg0.N) (ht : t.val < 16) (row : Fin 8192) (lane : Fin 128) :
    (iblk m c 1 t : Vec F S8192x128 .i32) (ix2 row lane)
      = shapeCast S131072x128 (m ((c : Thread nD τ).loc main_arg1)) shapeCasts_S16777216_S131072x128
          (ix2 (blockRow ⟨t.val, ht⟩ row) lane) := by
  have hidx : ∀ t : Fin cfg0.N, win0_1.index t (0 : Fin 2) = t.val ∧ win0_1.index t (1 : Fin 2) = 0 :=
    (by decide +kernel : ∀ t : Fin grid0.N, _)
  unfold iblk
  rw [View.read_apply]
  show V m c main_v1 _ = _
  rw [V_v1]
  refine congrArg _ ?_
  funext a
  apply Fin.ext
  match a with
  | ⟨0, _⟩ =>
    show win0_1.index t 0 * 8192 + 1 * row.val = t.val * 8192 + row.val
    rw [(hidx t).1]; omega
  | ⟨1, _⟩ =>
    show win0_1.index t 1 * 128 + 1 * lane.val = lane.val
    rw [(hidx t).2]; omega

end Cert.KernelIdeal.ColSums

end
-- ==== Proof.CaseValues.lean ====
/-
  What each of the kernel body's two control cases leaves in the three accumulator slabs, as explicit functions of the
  block read and of what the slab held before.

  In the first case (the first step of a core) a slab is written twice: the zero slab through the whole [8,128]
  rectangle, then, row 0 having been read back (zeros), row 0 plus the block's row of column sums through the [1,128]
  rectangle at the origin.  Read at (r, lane) the newer piece wins on row 0 and the zero slab shows on rows 1 … 7: the
  slab is `rowUpd zero8 col`.
  In the other case only the row-0 rectangle is written, over what the step before left, `xo`: row 0 reads
  `xo + col`, rows 1 … 7 read `xo`: the slab is `rowUpd xo col`.

  A list of writes is read one piece at a time, newest first, the condition being on the row coordinate alone; an index
  is split into its literal coordinates (r : Fin 8) (lane : Fin 128) before anything is read at it.
-/
import proofs.«131478_j77129022701690_2_alg».proof.Proof.Spec
import proofs.«131478_j77129022701690_2_alg».proof.Proof.KDefs
import proofs.«131478_j77129022701690_2_alg».proof.Proof.Gen.KernelIdeal.Frame
import Idealize.ShloMosaic.Lib.Pipeline.Value
import Idealize.ShloMosaic.Lib.WritesUnit
import Idealize.ShloMosaic.Lib.Tactic

noncomputable section

namespace Cert.KernelIdeal.CaseValues

open Idealize.ShloMosaic Idealize.ShloMosaic.TcCoe Idealize.SL.Sem
open Cert.KernelIdeal Cert.KernelIdeal.Gen Cert.KernelIdeal.Rows Cert.NegF1

variable {F : FTy → Type} [FloatOps F]

open Idealize.ShloMosaic.ValueIdx

/-- The zero offsets of a rank-2 rectangle are the constant function zero. -/
theorem off00 : (![0, 0] : Fin 2 → Nat) = fun _ => 0 := funext fun a => by fin_cases a <;> rfl

section Reading

variable {sg : RefSig} {κ : Kind} {sp : Space} {Val : EltTy → Type}

/-- A list of writes into an [8,128] slab whose newest piece is the row-0 rectangle, read at (r, lane): on row 0 that
    piece's payload at the lane, on any other row what the rest of the list left. -/
theorem read_cons_row0 (v : View sg κ sp (⟨2, ![8, 128]⟩ : Shape) .f32) (f : v.ty.Contents Val)
    (inb : ∀ a : Fin 2, (![0, 0] : Fin 2 → ℕ) a + (![1, 128] : Fin 2 → ℕ) a ≤ (![8, 128] : Fin 2 → ℕ) a)
    (w : (Rect.unit (s := ⟨2, ![8, 128]⟩) ![0, 0] ![1, 128] inb).shape.Idx → Val .f32)
    (L : List (View.Piece Val (⟨2, ![8, 128]⟩ : Shape) .f32)) (r : Fin 8) (lane : Fin 128) :
    v.read Val (v.writes Val f (⟨Rect.unit (s := ⟨2, ![8, 128]⟩) ![0, 0] ![1, 128] inb, w⟩ :: L)) (ix2 r lane)
      = if r.val = 0 then w (ix2 (0 : Fin 1) lane) else v.read Val (v.writes Val f L) (ix2 r lane) := by
  by_cases h : r.val = 0
  · rw [if_pos h]
    exact View.read_writes_cons_rows_of_mem v f inb w L (ix2 r lane) (ix2 (0 : Fin 1) lane) rfl h rfl
  · rw [if_neg h]
    exact View.read_writes_cons_rows_of_not_mem (W := 1) v f inb w L (ix2 r lane) rfl rfl
      (Or.inr (by show 0 + 1 ≤ r.val; omega))

/-- A list of writes whose newest piece is the whole slab reads that piece's payload everywhere. -/
theorem read_cons_whole (v : View sg κ sp (⟨2, ![8, 128]⟩ : Shape) .f32) (f : v.ty.Contents Val)
    (inb : ∀ a : Fin 2, (![0, 0] : Fin 2 → ℕ) a + (![8, 128] : Fin 2 → ℕ) a ≤ (![8, 128] : Fin 2 → ℕ) a)
    (w : (Rect.unit (s := ⟨2, ![8, 128]⟩) ![0, 0] ![8, 128] inb).shape.Idx → Val .f32)
    (L : List (View.Piece Val (⟨2, ![8, 128]⟩ : Shape) .f32)) (y : (⟨2, ![8, 128]⟩ : Shape).Idx) :
    v.read Val (v.writes Val f (⟨Rect.unit (s := ⟨2, ![8, 128]⟩) ![0, 0] ![8, 128] inb, w⟩ :: L)) y = w y :=
  View.read_writes_cons_rows_of_mem v f inb w L y y rfl (Nat.zero_add _).symm rfl

end Reading

section Loads

/-- A load of the whole of a whole rank-2 buffer reads its contents. -/
theorem load_whole {d : Fin 2 → ℕ} {e : EltTy} (m : Memref sig .tc .vmem (⟨2, d⟩ : Shape) e) (hm : m.IsWhole)
    (inb : ∀ a : Fin 2, (![0, 0] : Fin 2 → ℕ) a + d a ≤ d a) (X : (⟨2, d⟩ : Shape).Idx → Elt F e) :
    View.readAt (Elt F) m.view (Rect.unit (s := ⟨2, d⟩) ![0, 0] d inb).toLoadRect (hm.unread X) = X := by
  rw [View.readAt_eq_ld, hm.read_unread]
  exact View.ld_unit_zero (S := ⟨2, d⟩) off00 inb X

/-- A load of row 0 of a whole [8,128] buffer reads row 0 of its contents. -/
theorem load_row0 (m : Memref sig .tc .vmem (⟨2, ![8, 128]⟩ : Shape) .f32) (hm : m.IsWhole)
    (inb : ∀ a : Fin 2, (![0, 0] : Fin 2 → ℕ) a + (![1, 128] : Fin 2 → ℕ) a ≤ (![8, 128] : Fin 2 → ℕ) a)
    (X : (⟨2, ![8, 128]⟩ : Shape).Idx → Elt F .f32) (lane : Fin 128) :
    View.readAt (Elt F) m.view (Rect.unit (s := ⟨2, ![8, 128]⟩) ![0, 0] ![1, 128] inb).toLoadRect (hm.unread X)
        (ix2 (0 : Fin 1) lane) = X (ix2 (0 : Fin 8) lane) := by
  rw [View.readAt_apply, hm.read_unread]
  congr 1
  funext a
  apply Fin.ext
  match a with
  | ⟨0, _⟩ => rfl
  | ⟨1, _⟩ => show 0 + 1 * lane.val = lane.val; omega

end Loads

section Payloads

/-- The payload that accumulates the false-positive row is the row loaded plus that block's row. -/
theorem pay1_eq (v27 : FVec F S1x128 .f32) (v34 : Vec F S1x128 .f32) :
    k0_pay1 v27 v34 = addf (shapeCast S1x128 v34 shapeCasts_S1x128_S1x128) v27 := rfl

/-- The payload that accumulates the false-negative row is the row loaded plus that block's row. -/
theorem pay2_eq (v29 : FVec F S1x128 .f32) (v38 : Vec F S1x128 .f32) :
    k0_pay2 v29 v38 = addf (shapeCast S1x128 v38 shapeCasts_S1x128_S1x128) v29 := rfl

end Payloads

/-! ## The first case: the slab zeroed, then row 0 accumulated -/

/-- The first case leaves in the true-positive slab the zero slab with the block's true-positive row added into row 0. -/
theorem out_A_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i)
    (x0 : Vec F S8192x128 .f32) (x1 : Vec F S8192x128 .i32) :
    out0_A_2 c i arg2 harg2 arg3 harg3 arg4 harg4 arg5 harg5 arg6 harg6 hc0 x0 x1 = rowUpd zero8 (colTP x0 x1) := by
  funext y
  obtain ⟨r, lane, rfl⟩ : ∃ (r : Fin 8) (lane : Fin 128), y = ix2 r lane := ⟨y 0, y 1, eq_ix2 y⟩
  unfold out0_A_2 kernelRun0_A
  dsimp only
  sl_unfold_words
  refine (read_cons_row0 _ _ _ _ _ r lane).trans ?_
  show _ = if r.val = 0 then FloatOps.addf (zero8 (ix2 r lane)) (colTP x0 x1 (ix2 (0 : Fin 1) lane)) else zero8 (ix2 r lane)
  by_cases h : r.val = 0
  · rw [if_pos h, if_pos h]
    obtain rfl : r = 0 := Fin.ext h
    rw [load_whole, load_whole, pay11_eq, shapeCast_self]
    show FloatOps.addf _ _ = _
    rw [View.readCov_eq_canon', View.canon_unit_zero off00]
    rfl
  · rw [if_neg h, if_neg h]
    exact read_cons_whole _ _ _ _ _ _

/-- The first case leaves in the false-positive slab the zero slab with the block's false-positive row added into row 0. -/
theorem out_A_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i)
    (x0 : Vec F S8192x128 .f32) (x1 : Vec F S8192x128 .i32) :
    out0_A_3 c i arg2 harg2 arg3 harg3 arg4 harg4 arg5 harg5 arg6 harg6 hc0 x0 x1 = rowUpd zero8 (colFP x0 x1) := by
  funext y
  obtain ⟨r, lane, rfl⟩ : ∃ (r : Fin 8) (lane : Fin 128), y = ix2 r lane := ⟨y 0, y 1, eq_ix2 y⟩
  unfold out0_A_3 kernelRun0_A
  dsimp only
  sl_unfold_words
  refine (read_cons_row0 _ _ _ _ _ r lane).trans ?_
  show _ = if r.val = 0 then FloatOps.addf (zero8 (ix2 r lane)) (colFP x0 x1 (ix2 (0 : Fin 1) lane)) else zero8 (ix2 r lane)
  by_cases h : r.val = 0
  · rw [if_pos h, if_pos h]
    obtain rfl : r = 0 := Fin.ext h
    rw [load_whole, load_whole, pay1_eq, shapeCast_self]
    show FloatOps.addf _ _ = _
    rw [View.readCov_eq_canon', View.canon_unit_zero off00]
    rfl
  · rw [if_neg h, if_neg h]
    exact read_cons_whole _ _ _ _ _ _

/-- The first case leaves in the false-negative slab the zero slab with the block's false-negative row added into row 0. -/
theorem out_A_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : cond0_0 i)
    (x0 : Vec F S8192x128 .f32) (x1 : Vec F S8192x128 .i32) :
    out0_A_4 c i arg2 harg2 arg3 harg3 arg4 harg4 arg5 harg5 arg6 harg6 hc0 x0 x1 = rowUpd zero8 (colFN x0 x1) := by
  funext y
  obtain ⟨r, lane, rfl⟩ : ∃ (r : Fin 8) (lane : Fin 128), y = ix2 r lane := ⟨y 0, y 1, eq_ix2 y⟩
  unfold out0_A_4 kernelRun0_A
  dsimp only
  sl_unfold_words
  refine (read_cons_row0 _ _ _ _ _ r lane).trans ?_
  show _ = if r.val = 0 then FloatOps.addf (zero8 (ix2 r lane)) (colFN x0 x1 (ix2 (0 : Fin 1) lane)) else zero8 (ix2 r lane)
  by_cases h : r.val = 0
  · rw [if_pos h, if_pos h]
    obtain rfl : r = 0 := Fin.ext h
    rw [load_whole, load_whole, pay2_eq, shapeCast_self]
    show FloatOps.addf _ _ = _
    rw [View.readCov_eq_canon', View.canon_unit_zero off00]
    rfl
  · rw [if_neg h, if_neg h]
    exact read_cons_whole _ _ _ _ _ _

/-! ## The other case: row 0 accumulated over what the step before left -/

/-- The other case leaves in the true-positive slab what it held with the block's true-positive row added into row 0. -/
theorem out_B_2 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i)
    (x0 : Vec F S8192x128 .f32) (x1 : Vec F S8192x128 .i32) (xo2 xo3 xo4 : Vec F S8x128 .f32) :
    out0_B_2 c i arg2 harg2 arg3 harg3 arg4 harg4 arg5 harg5 arg6 harg6 hc0 x0 x1 xo2 xo3 xo4 = rowUpd xo2 (colTP x0 x1) := by
  funext y
  obtain ⟨r, lane, rfl⟩ : ∃ (r : Fin 8) (lane : Fin 128), y = ix2 r lane := ⟨y 0, y 1, eq_ix2 y⟩
  unfold out0_B_2 kernelRun0_B
  dsimp only
  sl_unfold_words
  refine (read_cons_row0 _ _ _ _ _ r lane).trans ?_
  show _ = if r.val = 0 then FloatOps.addf (xo2 (ix2 r lane)) (colTP x0 x1 (ix2 (0 : Fin 1) lane)) else xo2 (ix2 r lane)
  by_cases h : r.val = 0
  · rw [if_pos h, if_pos h]
    obtain rfl : r = 0 := Fin.ext h
    rw [load_whole, load_whole, pay11_eq, shapeCast_self]
    show FloatOps.addf _ _ = _
    rw [load_row0]
  · rw [if_neg h, if_neg h, View.writes_nil, harg4.read_unread]

/-- The other case leaves in the false-positive slab what it held with the block's false-positive row added into row 0. -/
theorem out_B_3 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i)
    (x0 : Vec F S8192x128 .f32) (x1 : Vec F S8192x128 .i32) (xo2 xo3 xo4 : Vec F S8x128 .f32) :
    out0_B_3 c i arg2 harg2 arg3 harg3 arg4 harg4 arg5 harg5 arg6 harg6 hc0 x0 x1 xo2 xo3 xo4 = rowUpd xo3 (colFP x0 x1) := by
  funext y
  obtain ⟨r, lane, rfl⟩ : ∃ (r : Fin 8) (lane : Fin 128), y = ix2 r lane := ⟨y 0, y 1, eq_ix2 y⟩
  unfold out0_B_3 kernelRun0_B
  dsimp only
  sl_unfold_words
  refine (read_cons_row0 _ _ _ _ _ r lane).trans ?_
  show _ = if r.val = 0 then FloatOps.addf (xo3 (ix2 r lane)) (colFP x0 x1 (ix2 (0 : Fin 1) lane)) else xo3 (ix2 r lane)
  by_cases h : r.val = 0
  · rw [if_pos h, if_pos h]
    obtain rfl : r = 0 := Fin.ext h
    rw [load_whole, load_whole, pay1_eq, shapeCast_self]
    show FloatOps.addf _ _ = _
    rw [load_row0]
  · rw [if_neg h, if_neg h, View.writes_nil, harg5.read_unread]

/-- The other case leaves in the false-negative slab what it held with the block's false-negative row added into row 0. -/
theorem out_B_4 (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc0 : ¬cond0_0 i)
    (x0 : Vec F S8192x128 .f32) (x1 : Vec F S8192x128 .i32) (xo2 xo3 xo4 : Vec F S8x128 .f32) :
    out0_B_4 c i arg2 harg2 arg3 harg3 arg4 harg4 arg5 harg5 arg6 harg6 hc0 x0 x1 xo2 xo3 xo4 = rowUpd xo4 (colFN x0 x1) := by
  funext y
  obtain ⟨r, lane, rfl⟩ : ∃ (r : Fin 8) (lane : Fin 128), y = ix2 r lane := ⟨y 0, y 1, eq_ix2 y⟩
  unfold out0_B_4 kernelRun0_B
  dsimp only
  sl_unfold_words
  refine (read_cons_row0 _ _ _ _ _ r lane).trans ?_
  show _ = if r.val = 0 then FloatOps.addf (xo4 (ix2 r lane)) (colFN x0 x1 (ix2 (0 : Fin 1) lane)) else xo4 (ix2 r lane)
  by_cases h : r.val = 0
  · rw [if_pos h, if_pos h]
    obtain rfl : r = 0 := Fin.ext h
    rw [load_whole, load_whole, pay2_eq, shapeCast_self]
    show FloatOps.addf _ _ = _
    rw [load_row0]
  · rw [if_neg h, if_neg h, View.writes_nil, harg6.read_unread]

end Cert.KernelIdeal.CaseValues

end
-- ==== Proof.Accumulate.lean ====
/-
  The accumulation over the grid.  After grid point `n` each of the three slabs holds the recursion `acc` of the rows
  of column sums of blocks 0 … n: zeroed and restarted at the first step of each core (n ≡ 0 mod 8), one more row added
  into row 0 at every other step.  By induction on the point, from what each control case leaves.
-/
import proofs.«131478_j77129022701690_2_alg».proof.Proof.Spec
import proofs.«131478_j77129022701690_2_alg».proof.Proof.KDefs
import proofs.«131478_j77129022701690_2_alg».proof.Proof.CaseValues
import proofs.«131478_j77129022701690_2_alg».proof.Proof.Gen.KernelIdeal.Frame

noncomputable section

namespace Cert.KernelIdeal.Accum

open Idealize.ShloMosaic Idealize.ShloMosaic.TcCoe Idealize.SL.Sem
open Cert.KernelIdeal Cert.KernelIdeal.Gen Cert.KernelIdeal.Rows Cert.KernelIdeal.CaseValues Cert.NegF1

variable {F : FTy → Type} [FloatOps F]
variable (m : (ℓ : Loc nD τ sig) → Buf (Elt F) ℓ)

/-- The true-positive row of block `n` (of the blocks the grid visits; a zero row beyond them). -/
def rowTP (c : Dev nD) (n : ℕ) : FVec F S1x128 .f32 :=
  if h : n < cfg0.N then colTP (iblk m c 0 ⟨n, h⟩) (iblk m c 1 ⟨n, h⟩) else fun _ => Scalar.ofBits .f32 0x00000000#32
/-- The false-positive row of block `n`. -/
def rowFP (c : Dev nD) (n : ℕ) : FVec F S1x128 .f32 :=
  if h : n < cfg0.N then colFP (iblk m c 0 ⟨n, h⟩) (iblk m c 1 ⟨n, h⟩) else fun _ => Scalar.ofBits .f32 0x00000000#32
/-- The false-negative row of block `n`. -/
def rowFN (c : Dev nD) (n : ℕ) : FVec F S1x128 .f32 :=
  if h : n < cfg0.N then colFN (iblk m c 0 ⟨n, h⟩) (iblk m c 1 ⟨n, h⟩) else fun _ => Scalar.ofBits .f32 0x00000000#32

theorem rowTP_of_lt (c : Dev nD) (t : Fin cfg0.N) : rowTP m c t.val = colTP (iblk m c 0 t) (iblk m c 1 t) := dif_pos t.isLt
theorem rowFP_of_lt (c : Dev nD) (t : Fin cfg0.N) : rowFP m c t.val = colFP (iblk m c 0 t) (iblk m c 1 t) := dif_pos t.isLt
theorem rowFN_of_lt (c : Dev nD) (t : Fin cfg0.N) : rowFN m c t.val = colFN (iblk m c 0 t) (iblk m c 1 t) := dif_pos t.isLt

/-- At the first step of a core the three slabs are the zero slab with the block's rows added. -/
theorem step_first (c : Dev nD) (t : Fin cfg0.N) (h0 : t.val % 8 = 0) :
    outsAt0 m c t.val t.isLt
      = (rowUpd zero8 (rowTP m c t.val), rowUpd zero8 (rowFP m c t.val), rowUpd zero8 (rowFN m c t.val)) := by
  rw [rowTP_of_lt, rowFP_of_lt, rowFN_of_lt]
  exact (outsAt0_A m c t h0).trans
    (congrArg₂ Prod.mk
      (out_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t))
      (congrArg₂ Prod.mk
        (out_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t))
        (out_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t))))

/-- At any other step the block's rows are added to what the step before left. -/
theorem step_next (c : Dev nD) (t : Fin cfg0.N) (h0 : ¬t.val % 8 = 0) :
    outsAt0 m c t.val t.isLt
      = (rowUpd (outsAt0 m c (t.val - 1) (Nat.lt_of_le_of_lt (Nat.sub_le _ _) t.isLt)).1 (rowTP m c t.val),
         rowUpd (outsAt0 m c (t.val - 1) (Nat.lt_of_le_of_lt (Nat.sub_le _ _) t.isLt)).2.1 (rowFP m c t.val),
         rowUpd (outsAt0 m c (t.val - 1) (Nat.lt_of_le_of_lt (Nat.sub_le _ _) t.isLt)).2.2 (rowFN m c t.val)) := by
  rw [rowTP_of_lt, rowFP_of_lt, rowFN_of_lt]
  exact (outsAt0_B m c t h0).trans
    (congrArg₂ Prod.mk
      (out_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) _ _ _)
      (congrArg₂ Prod.mk
        (out_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) _ _ _)
        (out_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) _ _ _)))

/-- The slabs after point `n` are the accumulation recursion of the blocks' rows. -/
theorem outsAt_eq (c : Dev nD) : ∀ (n : ℕ) (h : n < cfg0.N),
    outsAt0 m c n h = (acc (rowTP m c) n, acc (rowFP m c) n, acc (rowFN m c) n)
  | 0, h => step_first m c ⟨0, h⟩ rfl
  | n + 1, h => by
    by_cases h0 : (n + 1) % 8 = 0
    · rw [step_first m c ⟨n + 1, h⟩ h0]
      simp only [acc, if_pos h0]
    · rw [step_next m c ⟨n + 1, h⟩ h0]
      have ih := outsAt_eq c n (Nat.lt_of_succ_lt h)
      show (rowUpd (outsAt0 m c n _).1 _, rowUpd (outsAt0 m c n _).2.1 _, rowUpd (outsAt0 m c n _).2.2 _) = _
      rw [ih]
      simp only [acc, if_neg h0]

end Cert.KernelIdeal.Accum

end
-- ==== Proof.Final.lean ====
/-
  From the slabs to the arrays.  Output window w (w = 2, 3, 4) has one [8,128] block per core, written back after the
  core's last step (points 7 and 15).  What is written back at such a point is the accumulation of the core's eight
  rows of column sums; read through the block's place in the [16,128] array that is the slab function of Spec at the
  [131072,128] arrangement of the inputs.  The two blocks cover the array, so each output array ends holding it.
-/
import proofs.«131478_j77129022701690_2_alg».proof.Proof.Spec
import proofs.«131478_j77129022701690_2_alg».proof.Proof.KDefs
import proofs.«131478_j77129022701690_2_alg».proof.Proof.SumLaws
import proofs.«131478_j77129022701690_2_alg».proof.Proof.ColSums
import proofs.«131478_j77129022701690_2_alg».proof.Proof.Accumulate
import proofs.«131478_j77129022701690_2_alg».proof.Proof.Gen.KernelIdeal.Frame
import Idealize.ShloMosaic.Lib.Pipeline.Value

noncomputable section

namespace Cert.NegF1

open Idealize.ShloMosaic Idealize.ShloMosaic.ValueIdx

/-- A slab after the last step of core `n / 8`, read at slab index `y`, is the slab function at the array index `i`
    that `y` has inside the core's block: row `8 (n / 8) + y₀`, lane `y₁` — given that block `k`'s row of sums is the
    column sums of row block `k` of `g`. -/
theorem slab_block (g : SRL.Idx → EReal) (col : ℕ → FVec Ideal S1 .f32) (n : ℕ) (hn : n < 16) (h7 : n % 8 = 7)
    (hcol : ∀ (k : ℕ) (hk : k < 16) (lane : Fin 128), col k (ix2 (0 : Fin 1) lane) = colSum g ⟨k, hk⟩ lane)
    (y : S8.Idx) (i : SO.Idx) (h0 : (i 0).val = n / 8 * 8 + (y 0).val) (h1 : (i 1).val = (y 1).val) :
    acc col n y = slab g i := by
  obtain ⟨r, lane, rfl⟩ : ∃ (r : Fin 8) (lane : Fin 128), y = ix2 r lane := ⟨y 0, y 1, eq_ix2 y⟩
  obtain ⟨a, b, rfl⟩ : ∃ (a : Fin 16) (b : Fin 128), i = ix2 a b := ⟨i 0, i 1, eq_ix2 i⟩
  have h0' : a.val = n / 8 * 8 + r.val := h0
  obtain rfl : lane = b := Fin.ext h1.symm
  rw [acc_flush col n h7 r lane]
  unfold slab
  have hr8 : r.val < 8 := r.isLt
  by_cases hr : r.val = 0
  · have hi : ((ix2 a lane : SO.Idx) 0).val % 8 = 0 := by show a.val % 8 = 0; omega
    rw [if_pos hr, if_pos hi]
    refine Finset.sum_congr rfl fun j _ => ?_
    have hj8 : j.val < 8 := j.isLt
    have hk : n - 7 + j.val < 16 := by omega
    rw [hcol (n - 7 + j.val) hk lane]
    exact congrArg (fun t => colSum g t lane) (Fin.ext (by show n - 7 + j.val = a.val / 8 * 8 + j.val; omega))
  · have hi : ¬((ix2 a lane : SO.Idx) 0).val % 8 = 0 := by show ¬a.val % 8 = 0; omega
    rw [if_neg hr, if_neg hi]

end Cert.NegF1

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Rows Cert.KernelIdeal.ColSums Cert.KernelIdeal.Accum Cert.NegF1

variable (m : (ℓ : Loc nD τ sig) → Buf (Elt Ideal) ℓ)

/-- The probabilities in their [131072,128] arrangement. -/
def X (c : Dev nD) : SRL.Idx → EReal :=
  shapeCast S131072x128 (m ((c : Thread nD τ).loc main_arg0)) shapeCasts_S16777216_S131072x128
/-- The labels in their [131072,128] arrangement. -/
def L (c : Dev nD) : SRL.Idx → BitVec 32 :=
  shapeCast S131072x128 (m ((c : Thread nD τ).loc main_arg1)) shapeCasts_S16777216_S131072x128
/-- A summand at every entry of the arrangement. -/
def gOf (f : Ideal .f32 → BitVec 32 → Ideal .f32) (c : Dev nD) : SRL.Idx → EReal := fun q => f (X m c q) (L m c q)

/-- Where the output windows' blocks sit: block row `t / 8`, block column 0 — decided over the grid. -/
theorem idx_out : ∀ t : Fin cfg0.N,
    win0_2.index t (0 : Fin 2) = t.val / 8 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

/-! ## Output window 2: the true-positive sums -/

/-- Block `k`'s true-positive row at a lane is the column sum of row block `k` of the summand over the arrangement. -/
theorem rowTP_apply (c : Dev nD) (k : ℕ) (hk : k < 16) (lane : Fin 128) :
    rowTP m c k (ix2 (0 : Fin 1) lane) = colSum (gOf m tpS c) ⟨k, hk⟩ lane := by
  have hN : cfg0.N = 16 := N_0
  have hk' : k < cfg0.N := by rw [hN]; exact hk
  rw [rowTP_of_lt m c ⟨k, hk'⟩]
  refine (colTP_apply (iblk m c 0 ⟨k, hk'⟩) (iblk m c 1 ⟨k, hk'⟩) lane).trans ?_
  unfold colSum gOf X L
  exact Finset.sum_congr rfl fun row _ =>
    congrArg₂ tpS (iblk0_apply m c ⟨k, hk'⟩ hk row lane) (iblk1_apply m c ⟨k, hk'⟩ hk row lane)

/-- What a write-back of window 2 writes is the block of the slab function it is written to. -/
theorem flushed2_eq (c : Dev nD) (t : Fin cfg0.N) (hf : (cfg0.win 2).flush t = true) :
    (dats m 0 c).flushed 2 t = ((cfg0.win 2).blk t).view.read (Elt Ideal) (slab (gOf m tpS c)) := by
  have hN : cfg0.N = 16 := N_0
  have ht : t.val < 16 := lt_of_lt_of_eq t.isLt hN
  have h7 : t.val % 8 = 7 := (flush0_2 t).mp hf
  obtain ⟨e20, e21, e30, e31, e40, e41⟩ := idx_out t
  show (cfg0.win 2).cut (grid0.coords t) ((dats m 0 c).after 2 t) = _
  rw [after0_2, outsAt_eq m c t.val t.isLt]
  funext j
  show acc (rowTP m c) t.val j = slab (gOf m tpS c) (((cfg0.win 2).blk t).view.emb j)
  refine slab_block (gOf m tpS c) (rowTP m c) t.val ht h7 (rowTP_apply m c) j _ ?_ ?_
  · show win0_2.index t (0 : Fin 2) * 8 + 1 * (j 0).val = t.val / 8 * 8 + (j 0).val
    rw [e20]; omega
  · show win0_2.index t (1 : Fin 2) * 128 + 1 * (j 1).val = (j 1).val
    rw [e21]; omega

/-- An index of the array is in point `t`'s block iff each coordinate is in the block's range on its axis. -/
theorem mem_blk2 (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2_0).slice (win0_2.rect t)).set ↔ _
  rw [View.set_slice_whole, Rect.mem_set_unit]
  exact Iff.rfl

/-- Every index of the array lies in the block written back after the last step of its core. -/
theorem cover2 (i : S16x128.Idx) :
    ∃ t : Fin cfg0.N, (cfg0.win 2).flush t = true ∧ i ∈ ((cfg0.win 2).blk t).view.set := by
  have hN : cfg0.N = 16 := N_0
  have hi0 : (i 0).val < 16 := (i 0).isLt
  have hi1 : (i 1).val < 128 := (i 1).isLt
  have hlt : (i 0).val / 8 * 8 + 7 < cfg0.N := by rw [hN]; omega
  obtain ⟨e20, e21, e30, e31, e40, e41⟩ := idx_out ⟨(i 0).val / 8 * 8 + 7, hlt⟩
  refine ⟨⟨(i 0).val / 8 * 8 + 7, hlt⟩, (flush0_2 _).mpr (by show ((i 0).val / 8 * 8 + 7) % 8 = 7; omega), ?_⟩
  rw [mem_blk2]
  intro a
  match a with
  | ⟨0, _⟩ =>
    show win0_2.index ⟨(i 0).val / 8 * 8 + 7, hlt⟩ (0 : Fin 2) * 8 ≤ (i 0).val ∧ (i 0).val < win0_2.index ⟨(i 0).val / 8 * 8 + 7, hlt⟩ (0 : Fin 2) * 8 + 8
    rw [e20]
    show ((i 0).val / 8 * 8 + 7) / 8 * 8 ≤ (i 0).val ∧ (i 0).val < ((i 0).val / 8 * 8 + 7) / 8 * 8 + 8
    omega
  | ⟨1, _⟩ =>
    show win0_2.index ⟨(i 0).val / 8 * 8 + 7, hlt⟩ (1 : Fin 2) * 128 ≤ (i 1).val ∧ (i 1).val < win0_2.index ⟨(i 0).val / 8 * 8 + 7, hlt⟩ (1 : Fin 2) * 128 + 128
    rw [e21]
    omega

/-- The array of window 2 ends holding the slabs of the true-positive summand. -/
theorem final2 (c : Dev nD) : (dats m 0 c).arrAt 2 cfg0.N = slab (gOf m tpS c) :=
  (dats m 0 c).arrAt_eq_of_cover 2 (slab (gOf m tpS c)) (flushed2_eq m c) (cover2)

/-! ## Output window 3: the false-positive sums -/

/-- Block `k`'s false-positive row at a lane is the column sum of row block `k` of the summand over the arrangement. -/
theorem rowFP_apply (c : Dev nD) (k : ℕ) (hk : k < 16) (lane : Fin 128) :
    rowFP m c k (ix2 (0 : Fin 1) lane) = colSum (gOf m fpS c) ⟨k, hk⟩ lane := by
  have hN : cfg0.N = 16 := N_0
  have hk' : k < cfg0.N := by rw [hN]; exact hk
  rw [rowFP_of_lt m c ⟨k, hk'⟩]
  refine (colFP_apply (iblk m c 0 ⟨k, hk'⟩) (iblk m c 1 ⟨k, hk'⟩) lane).trans ?_
  unfold colSum gOf X L
  exact Finset.sum_congr rfl fun row _ =>
    congrArg₂ fpS (iblk0_apply m c ⟨k, hk'⟩ hk row lane) (iblk1_apply m c ⟨k, hk'⟩ hk row lane)

/-- What a write-back of window 3 writes is the block of the slab function it is written to. -/
theorem flushed3_eq (c : Dev nD) (t : Fin cfg0.N) (hf : (cfg0.win 3).flush t = true) :
    (dats m 0 c).flushed 3 t = ((cfg0.win 3).blk t).view.read (Elt Ideal) (slab (gOf m fpS c)) := by
  have hN : cfg0.N = 16 := N_0
  have ht : t.val < 16 := lt_of_lt_of_eq t.isLt hN
  have h7 : t.val % 8 = 7 := (flush0_3 t).mp hf
  obtain ⟨e20, e21, e30, e31, e40, e41⟩ := idx_out t
  show (cfg0.win 3).cut (grid0.coords t) ((dats m 0 c).after 3 t) = _
  rw [after0_3, outsAt_eq m c t.val t.isLt]
  funext j
  show acc (rowFP m c) t.val j = slab (gOf m fpS c) (((cfg0.win 3).blk t).view.emb j)
  refine slab_block (gOf m fpS c) (rowFP m c) t.val ht h7 (rowFP_apply m c) j _ ?_ ?_
  · show win0_3.index t (0 : Fin 2) * 8 + 1 * (j 0).val = t.val / 8 * 8 + (j 0).val
    rw [e30]; omega
  · show win0_3.index t (1 : Fin 2) * 128 + 1 * (j 1).val = (j 1).val
    rw [e31]; omega

/-- An index of the array is in point `t`'s block iff each coordinate is in the block's range on its axis. -/
theorem mem_blk3 (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v2_1).slice (win0_3.rect t)).set ↔ _
  rw [View.set_slice_whole, Rect.mem_set_unit]
  exact Iff.rfl

/-- Every index of the array lies in the block written back after the last step of its core. -/
theorem cover3 (i : S16x128.Idx) :
    ∃ t : Fin cfg0.N, (cfg0.win 3).flush t = true ∧ i ∈ ((cfg0.win 3).blk t).view.set := by
  have hN : cfg0.N = 16 := N_0
  have hi0 : (i 0).val < 16 := (i 0).isLt
  have hi1 : (i 1).val < 128 := (i 1).isLt
  have hlt : (i 0).val / 8 * 8 + 7 < cfg0.N := by rw [hN]; omega
  obtain ⟨e20, e21, e30, e31, e40, e41⟩ := idx_out ⟨(i 0).val / 8 * 8 + 7, hlt⟩
  refine ⟨⟨(i 0).val / 8 * 8 + 7, hlt⟩, (flush0_3 _).mpr (by show ((i 0).val / 8 * 8 + 7) % 8 = 7; omega), ?_⟩
  rw [mem_blk3]
  intro a
  match a with
  | ⟨0, _⟩ =>
    show win0_3.index ⟨(i 0).val / 8 * 8 + 7, hlt⟩ (0 : Fin 2) * 8 ≤ (i 0).val ∧ (i 0).val < win0_3.index ⟨(i 0).val / 8 * 8 + 7, hlt⟩ (0 : Fin 2) * 8 + 8
    rw [e30]
    show ((i 0).val / 8 * 8 + 7) / 8 * 8 ≤ (i 0).val ∧ (i 0).val < ((i 0).val / 8 * 8 + 7) / 8 * 8 + 8
    omega
  | ⟨1, _⟩ =>
    show win0_3.index ⟨(i 0).val / 8 * 8 + 7, hlt⟩ (1 : Fin 2) * 128 ≤ (i 1).val ∧ (i 1).val < win0_3.index ⟨(i 0).val / 8 * 8 + 7, hlt⟩ (1 : Fin 2) * 128 + 128
    rw [e31]
    omega

/-- The array of window 3 ends holding the slabs of the false-positive summand. -/
theorem final3 (c : Dev nD) : (dats m 0 c).arrAt 3 cfg0.N = slab (gOf m fpS c) :=
  (dats m 0 c).arrAt_eq_of_cover 3 (slab (gOf m fpS c)) (flushed3_eq m c) (cover3)

/-! ## Output window 4: the false-negative sums -/

/-- Block `k`'s false-negative row at a lane is the column sum of row block `k` of the summand over the arrangement. -/
theorem rowFN_apply (c : Dev nD) (k : ℕ) (hk : k < 16) (lane : Fin 128) :
    rowFN m c k (ix2 (0 : Fin 1) lane) = colSum (gOf m fnS c) ⟨k, hk⟩ lane := by
  have hN : cfg0.N = 16 := N_0
  have hk' : k < cfg0.N := by rw [hN]; exact hk
  rw [rowFN_of_lt m c ⟨k, hk'⟩]
  refine (colFN_apply (iblk m c 0 ⟨k, hk'⟩) (iblk m c 1 ⟨k, hk'⟩) lane).trans ?_
  unfold colSum gOf X L
  exact Finset.sum_congr rfl fun row _ =>
    congrArg₂ fnS (iblk0_apply m c ⟨k, hk'⟩ hk row lane) (iblk1_apply m c ⟨k, hk'⟩ hk row lane)

/-- What a write-back of window 4 writes is the block of the slab function it is written to. -/
theorem flushed4_eq (c : Dev nD) (t : Fin cfg0.N) (hf : (cfg0.win 4).flush t = true) :
    (dats m 0 c).flushed 4 t = ((cfg0.win 4).blk t).view.read (Elt Ideal) (slab (gOf m fnS c)) := by
  have hN : cfg0.N = 16 := N_0
  have ht : t.val < 16 := lt_of_lt_of_eq t.isLt hN
  have h7 : t.val % 8 = 7 := (flush0_4 t).mp hf
  obtain ⟨e20, e21, e30, e31, e40, e41⟩ := idx_out t
  show (cfg0.win 4).cut (grid0.coords t) ((dats m 0 c).after 4 t) = _
  rw [after0_4, outsAt_eq m c t.val t.isLt]
  funext j
  show acc (rowFN m c) t.val j = slab (gOf m fnS c) (((cfg0.win 4).blk t).view.emb j)
  refine slab_block (gOf m fnS c) (rowFN m c) t.val ht h7 (rowFN_apply m c) j _ ?_ ?_
  · show win0_4.index t (0 : Fin 2) * 8 + 1 * (j 0).val = t.val / 8 * 8 + (j 0).val
    rw [e40]; omega
  · show win0_4.index t (1 : Fin 2) * 128 + 1 * (j 1).val = (j 1).val
    rw [e41]; omega

/-- An index of the array is in point `t`'s block iff each coordinate is in the block's range on its axis. -/
theorem mem_blk4 (t : Fin cfg0.N) (i : S16x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v2_2).slice (win0_4.rect t)).set ↔ _
  rw [View.set_slice_whole, Rect.mem_set_unit]
  exact Iff.rfl

/-- Every index of the array lies in the block written back after the last step of its core. -/
theorem cover4 (i : S16x128.Idx) :
    ∃ t : Fin cfg0.N, (cfg0.win 4).flush t = true ∧ i ∈ ((cfg0.win 4).blk t).view.set := by
  have hN : cfg0.N = 16 := N_0
  have hi0 : (i 0).val < 16 := (i 0).isLt
  have hi1 : (i 1).val < 128 := (i 1).isLt
  have hlt : (i 0).val / 8 * 8 + 7 < cfg0.N := by rw [hN]; omega
  obtain ⟨e20, e21, e30, e31, e40, e41⟩ := idx_out ⟨(i 0).val / 8 * 8 + 7, hlt⟩
  refine ⟨⟨(i 0).val / 8 * 8 + 7, hlt⟩, (flush0_4 _).mpr (by show ((i 0).val / 8 * 8 + 7) % 8 = 7; omega), ?_⟩
  rw [mem_blk4]
  intro a
  match a with
  | ⟨0, _⟩ =>
    show win0_4.index ⟨(i 0).val / 8 * 8 + 7, hlt⟩ (0 : Fin 2) * 8 ≤ (i 0).val ∧ (i 0).val < win0_4.index ⟨(i 0).val / 8 * 8 + 7, hlt⟩ (0 : Fin 2) * 8 + 8
    rw [e40]
    show ((i 0).val / 8 * 8 + 7) / 8 * 8 ≤ (i 0).val ∧ (i 0).val < ((i 0).val / 8 * 8 + 7) / 8 * 8 + 8
    omega
  | ⟨1, _⟩ =>
    show win0_4.index ⟨(i 0).val / 8 * 8 + 7, hlt⟩ (1 : Fin 2) * 128 ≤ (i 1).val ∧ (i 1).val < win0_4.index ⟨(i 0).val / 8 * 8 + 7, hlt⟩ (1 : Fin 2) * 128 + 128
    rw [e41]
    omega

/-- The array of window 4 ends holding the slabs of the false-negative summand. -/
theorem final4 (c : Dev nD) : (dats m 0 c).arrAt 4 cfg0.N = slab (gOf m fnS c) :=
  (dats m 0 c).arrAt_eq_of_cover 4 (slab (gOf m fnS c)) (flushed4_eq m c) (cover4)

end Cert.KernelIdeal.Final

end
-- ==== Proof.KernelRun.lean ====
/-
  The kernel's run, read.  After the region the three [16,128] arrays hold the slabs of the three summands; the host
  sums each of them whole from the zero word — the total of the summand over the [131072,128] arrangement, which is its
  total over the flat inputs, a reshape only re-indexing a sum — and applies the scalar tail.  So the kernel's result
  is the loss of its arguments.
-/
import proofs.«131478_j77129022701690_2_alg».proof.Proof.Spec
import proofs.«131478_j77129022701690_2_alg».proof.Proof.SumLaws
import proofs.«131478_j77129022701690_2_alg».proof.Proof.Final
import proofs.«131478_j77129022701690_2_alg».proof.Proof.Gen.KernelIdeal.Frame
import Idealize.ShloMosaic.Lib.StableHlo.Run
import Idealize.ShloMosaic.Lib.Pipeline.Value
import Idealize.ShloMosaic.PureOps.Ideal.Laws

noncomputable section

namespace Cert.NegF1

open Idealize.ShloMosaic Idealize.ShloMosaic.ValueIdx

/-- The host's whole-array sum of the slabs, from the zero word, is the zero word plus the sum of `g` over the
    arrangement: the slabs hold each entry's contribution exactly once. -/
theorem hostSum_slab {axes : List (Fin SO.rank)} (g : SRL.Idx → EReal) (h' : SO.ReducesTo axes S0) (hu : 0 < S0.numel) :
    Host.reduceAdd (F := Ideal) (slab g) (constant (F := Ideal) S0 .f32 0x00000000#32) h' hu
      = (fun _ => (FloatOps.ofBits .f32 0x00000000#32 : Ideal .f32) + ∑ q : SRL.Idx, g q : FVec Ideal S0 .f32) := by
  funext i
  simp only [Host.reduceAdd, Ideal.hostReduceAdd_def]
  refine (Ideal.hostReduceAdd_total h' (fun b => b.elim0) (slab g) _ i).trans ?_
  rw [sum_slab]
  rfl

end Cert.NegF1

namespace Cert.KernelIdeal.KRun

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Final Cert.NegF1

variable (m : (ℓ : Loc nD τ sig) → Buf (Elt Ideal) ℓ) (ρ : Dev nD → PrngReg)

set_option maxHeartbeats 1000000 in
/-- The host operations after the region, composed: the scalar tail of the three whole-array sums of the output arrays. -/
theorem tail_arr (c : Dev nD) :
    Pipeline.afterTail₀ cfgs (dats m) 0 (V0 m) [hostOps1] c main_v18
      = tailV
          (Host.reduceAdd (F := Ideal) ((dats m 0 c).arrAt 2 cfg0.N) (constant (F := Ideal) S_ .f32 0x00000000#32) reducesTo_S16x128_S_d0_1 h_S_)
          (Host.reduceAdd (F := Ideal) ((dats m 0 c).arrAt 3 cfg0.N) (constant (F := Ideal) S_ .f32 0x00000000#32) reducesTo_S16x128_S_d0_1 h_S_)
          (Host.reduceAdd (F := Ideal) ((dats m 0 c).arrAt 4 cfg0.N) (constant (F := Ideal) S_ .f32 0x00000000#32) reducesTo_S16x128_S_d0_1 h_S_) := by
  have e2 : Pipeline.withArrays (cfgs 0).spec c (V0 m c) (fun w => (dats m 0 c).arrAt w (cfgs 0).N) (Proc.devRef .tc main_v2_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v2_1)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v2_2)
      = (dats m 0 c).arrAt 4 cfg0.N := Pipeline.withArrays_arr spec0 launch0.win.arr_inj c _ _ 4
  unfold Pipeline.afterTail₀
  show StableHlo.after hostOps1 _ (Proc.devRef .tc main_v18) = _
  after_results_simp
  rw [e2, e3, e4]
  rfl

/-- The total of a summand over the arrangement is its total over the flat inputs. -/
theorem total_of (f : Ideal .f32 → BitVec 32 → Ideal .f32) (c : Dev nD) :
    (fun _ => (FloatOps.ofBits .f32 0x00000000#32 : Ideal .f32) + ∑ q : SRL.Idx, gOf m f c q : FVec Ideal S0 .f32)
      = total f (m ((c : Thread nD τ).loc main_arg0)) (m ((c : Thread nD τ).loc main_arg1)) := by
  unfold total gOf X L
  funext _
  exact congrArg (fun s => _ + s) (sum_reshape f _ _ shapeCasts_S16777216_S131072x128)

/-- The kernel's result is the loss of its arguments. -/
theorem result_eq (c : Dev nD) :
    Pipeline.afterTail₀ cfgs (dats m) 0 (V0 m) [hostOps1] c main_v18
      = loss (m ((c : Thread nD τ).loc main_arg0)) (m ((c : Thread nD τ).loc main_arg1)) := by
  rw [tail_arr m c, final2 m c, final3 m c, final4 m c, hostSum_slab, hostSum_slab, hostSum_slab,
    total_of m tpS c, total_of m fpS c, total_of m fnS c]
  rfl

/-- The kernel's run: it ends with the loss of its arguments in its result, the arguments unchanged. -/
theorem run : θ_run defs (onTc (τ := τ) (main (F := Ideal))) ⟨m, fun _ => 0, ρ⟩ fun r => ∀ c : Dev nD,
      r.2.mem ((c.tc : Thread nD τ).loc main_v18)
        = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v18 (Pipeline.mem_restRefs_of main_v18 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KRun

end
-- ==== Proof.lean ====
/-
  The negated soft F1 loss over 16777216 entries: the kernel against its reference, at the ideal instance.

  Both programs compute  -(2 · P · R / (P + R))  with  P = (TP + ε) / (TP + FP + ε),  R = (TP + ε) / (TP + FN + ε),  where
  TP, FP and FN are the sums over all entries of the true-positive, false-positive and false-negative summands
  (Proof/Spec.lean).  The reference sums the flat arrays whole (Proof/RefRead.lean).  The kernel arranges the entries
  as [131072,128], walks 16 blocks of 8192 rows on a (2, 8) grid, and keeps per core an [8,128] slab whose row 0
  accumulates the blocks' column sums (Proof/CaseValues.lean: what one step leaves; Proof/Accumulate.lean: the slabs
  point by point; Proof/ColSums.lean: a block's row of sums, entry by entry; Proof/Final.lean: the three output arrays);
  the host then sums each [16,128] array whole and applies the same scalar tail (Proof/KernelRun.lean).  Over the
  extended reals addition is commutative and associative, so the slabs' sum is the flat sum (Proof/SumLaws.lean): the
  two results are one function of the arguments, and the inputs' finiteness is never used.
  The ideal pass rewrote nothing, so the preservation claim is trivial; the kernel's two frames are the generated ones,
  the reference's frame is its run with the result dropped.
-/
import proofs.«131478_j77129022701690_2_alg».proof.Defs
import proofs.«131478_j77129022701690_2_alg».proof.Proof.Gen.Kernel
import proofs.«131478_j77129022701690_2_alg».proof.Proof.Gen.Kernel.Frame
import proofs.«131478_j77129022701690_2_alg».proof.Proof.Gen.KernelIdeal
import proofs.«131478_j77129022701690_2_alg».proof.Proof.Gen.KernelIdeal.Frame
import proofs.«131478_j77129022701690_2_alg».proof.Proof.Gen.ReferenceIdeal
import proofs.«131478_j77129022701690_2_alg».proof.Proof.Gen.ReferenceIdeal.Run
import proofs.«131478_j77129022701690_2_alg».proof.Proof.Gen.Pre_finite_inputs
import proofs.«131478_j77129022701690_2_alg».proof.Proof.Spec
import proofs.«131478_j77129022701690_2_alg».proof.Proof.RefRead
import proofs.«131478_j77129022701690_2_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the arguments both programs end with the loss of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
